-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39_1)) (v1 : (c : Dev Cert.KernelIdeal.nD) → Buf (Elt Ideal) ((c.tc : Thread Cert.KernelIdeal.nD Cert.KernelIdeal.τ).loc Cert.KernelIdeal.main_v39_0)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_1) = v0 c
          ∧ r.2.mem ((c.tc : Thread Cert.KernelIdeal.nD Cert.KernelIdeal.τ).loc Cert.KernelIdeal.main_v39_0) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x64 : Shape := ⟨2, ![1000000, 64]⟩
abbrev S200000x1 : Shape := ⟨2, ![200000, 1]⟩
abbrev S200000x64 : Shape := ⟨2, ![200000, 64]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S200000x64 .f32) (main_arg8 : FVec F S200000x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S200000x64 .f32 := Host.absf main_arg7
  let main_cst_8 : FVec F S_ .f32 := constant S_ .f32 0x7F800000#32
  let main_v25 : FVec F S200000x64 .f32 := broadcastInDim S200000x64 ![] bcast_S_S200000x64 main_cst_8
  let main_v26 : IVec S200000x64 1 := cmpf .olt main_v24 main_v25
  let main_c_9 : IVec S_ 1 := constantI S_ 1 1#1
  let main_v27 : IVec S_ 1 := (fun x v => Host.reduce IntOp.andi x v reducesTo_S200000x64_S_d0_1 h_S_) main_v26 main_c_9
  let main_v28 : IVec S_ 1 := andi main_v23 main_v27
  let main_v29 : FVec F S200000x64 .f32 := Host.absf main_arg8
  let main_cst_10 : FVec F S_ .f32 := constant S_ .f32 0x7F800000#32
  let main_v30 : FVec F S200000x64 .f32 := broadcastInDim S200000x64 ![] bcast_S_S200000x64 main_cst_10
  let main_v31 : IVec S200000x64 1 := cmpf .olt main_v29 main_v30
  let main_c_11 : IVec S_ 1 := constantI S_ 1 1#1
  let main_v32 : IVec S_ 1 := (fun x v => Host.reduce IntOp.andi x v reducesTo_S200000x64_S_d0_1 h_S_) main_v31 main_c_11
  let main_v33 : IVec S_ 1 := andi main_v28 main_v32
  main_v33

def fn {F : FTy → Type} [FloatOps F] (main_arg0 : IVec S1000000 32) (main_arg1 : IVec S1000000 32) (main_arg2 : FVec F S1000000x64 .f32) (main_arg3 : FVec F S200000x1 .f32) (main_arg4 : FVec F S200000x64 .f32) (main_arg5 : FVec F S64x64 .f32) (main_arg6 : FVec F S64x64 .f32) (main_arg7 : FVec F S200000x64 .f32) (main_arg8 : FVec F S200000x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S200000x1 .f32 := Host.absf main_arg3
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S200000x64 .f32 := Host.absf main_arg4
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S1000000 : Shape := ⟨1, ![1000000]⟩
abbrev S1000000x64 : Shape := ⟨2, ![1000000, 64]⟩
abbrev S200000x1 : Shape := ⟨2, ![200000, 1]⟩
abbrev S200000x64 : Shape := ⟨2, ![200000, 64]⟩
abbrev S64x64 : Shape := ⟨2, ![64, 64]⟩
abbrev S_ : Shape := ⟨0, ![]⟩
abbrev S1000000x1 : Shape := ⟨2, ![1000000, 1]⟩
abbrev S5000x64 : Shape := ⟨2, ![5000, 64]⟩
abbrev S5000x1 : Shape := ⟨2, ![5000, 1]⟩

abbrev nBuf : Space → Nat
  | .hbm => 61
  | .vmem => 26
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000x64, .f32⟩
  | .hbm, ⟨3, _⟩ => ⟨S200000x1, .f32⟩
  | .hbm, ⟨4, _⟩ => ⟨S200000x64, .f32⟩
  | .hbm, ⟨5, _⟩ => ⟨S64x64, .f32⟩
  | .hbm, ⟨6, _⟩ => ⟨S64x64, .f32⟩
  | .hbm, ⟨7, _⟩ => ⟨S200000x64, .f32⟩
  | .hbm, ⟨8, _⟩ => ⟨S200000x64, .f32⟩
  | .hbm, ⟨9, _⟩ => ⟨S200000x64, .f32⟩
  | .hbm, ⟨10, _⟩ => ⟨S200000x64, .f32⟩
  | .hbm, ⟨11, _⟩ => ⟨S200000x64, .f32⟩
  | .hbm, ⟨12, _⟩ => ⟨S200000x64, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x64, .f32⟩
  | .hbm, ⟨40, _⟩ => ⟨S64x64, .f32⟩
  | .hbm, ⟨41, _⟩ => ⟨S64x64, .bf16⟩
  | .hbm, ⟨42, _⟩ => ⟨S64x64, .f32⟩
  | .hbm, ⟨43, _⟩ => ⟨S64x64, .bf16⟩
  | .hbm, ⟨44, _⟩ => ⟨S1000000x64, .f32⟩
  | .hbm, ⟨45, _⟩ => ⟨S1000000x64, .f32⟩
  | .hbm, ⟨46, _⟩ => ⟨S_, .f32⟩
  | .hbm, ⟨47, _⟩ => ⟨S200000x64, .f32⟩
  | .hbm, ⟨48, _⟩ => ⟨S1000000x1, .i32⟩
  | .hbm, ⟨49, _⟩ => ⟨S200000x64, .f32⟩
  | .hbm, ⟨50, _⟩ => ⟨S_, .f32⟩
  | .hbm, ⟨51, _⟩ => ⟨S200000x64, .f32⟩
  | .hbm, ⟨52, _⟩ => ⟨S1000000x1, .i32⟩
  | .hbm, ⟨53, _⟩ => ⟨S200000x64, .f32⟩
  | .hbm, ⟨54, _⟩ => ⟨S_, .f32⟩
  | .hbm, ⟨55, _⟩ => ⟨S200000x64, .f32⟩
  | .hbm, ⟨56, _⟩ => ⟨S1000000x1, .i32⟩
  | .hbm, ⟨57, _⟩ => ⟨S200000x64, .f32⟩
  | .hbm, ⟨58, _⟩ => ⟨S200000x64, .f32⟩
  | .hbm, ⟨59, _⟩ => ⟨S200000x64, .f32⟩
  | .hbm, ⟨60, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .bf16⟩
  | .local _ .vmem, ⟨7, _⟩ => ⟨S64x64, .bf16⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S200000x1_S200000x64_0_1 : S200000x1.BroadcastsInDim S200000x64 (![0, 1] : Fin 2 → Fin S200000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S5000x64_S5000x64 : S5000x64.ShapeCasts S5000x64
  bcast_S_S200000x64 : S_.BroadcastsInDim S200000x64 (![] : Fin 0 → Fin S200000x64.rank)
  gather_S200000x1_S1000000x1_S1000000x1_1_0_n_n_0_1_11_wf : GatherDims.WF S200000x1 S1000000x1 S1000000x1 [1] [0] [] [0] [] 1 ![1, 1]
  gather_S200000x64_S1000000x1_S1000000x64_1_0_n_n_0_1_164_wf : GatherDims.WF S200000x64 S1000000x1 S1000000x64 [1] [0] [] [0] [] 1 ![1, 64]
  dot_S5000x64_S64x64_S5000x64_1_0_0_1_n_n_wf : DotDims.WF S5000x64 S64x64 S5000x64 [1] [0] [0] [1] [] []
  scatter_S200000x64_S1000000x1_S1000000x64_1_0_0_1_wf : ScatterDims.WF S200000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .f32 = 32 ∨ (Rect.block (s := S1000000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S1000000x64.size a
  hwx0_5 : ∀ i : grid0.Coords, EltTy.bits .f32 = 32 ∨ (Rect.block (s := S1000000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S1000000x64.size a
  hwx0_6 : ∀ i : grid0.Coords, EltTy.bits .f32 = 32 ∨ (Rect.block (s := S1000000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S200000x64.size a
  hwx1_2 : ∀ i : grid1.Coords, EltTy.bits .f32 = 32 ∨ (Rect.block (s := S200000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S200000x1.size a
  hwx1_3 : ∀ i : grid1.Coords, EltTy.bits .f32 = 32 ∨ (Rect.block (s := S200000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S200000x64.size a
  hwx1_4 : ∀ i : grid1.Coords, EltTy.bits .f32 = 32 ∨ (Rect.block (s := S200000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S200000x64.size a
  hwx1_5 : ∀ i : grid1.Coords, EltTy.bits .f32 = 32 ∨ (Rect.block (s := S200000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S200000x64.size a
  hwx1_6 : ∀ i : grid1.Coords, EltTy.bits .f32 = 32 ∨ (Rect.block (s := S200000x64) S5000x64.size (cc1_transform_6 i) (hinb1_6 i)).WholeWords (EltTy.packing .f32)

variable [Facts₀]

def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39_1) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39_2) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000 : Shape := ⟨1, ![1000000]⟩
abbrev S1000000x64 : Shape := ⟨2, ![1000000, 64]⟩
abbrev S200000x1 : Shape := ⟨2, ![200000, 1]⟩
abbrev S200000x64 : Shape := ⟨2, ![200000, 64]⟩
abbrev S64x64 : Shape := ⟨2, ![64, 64]⟩
abbrev S_ : Shape := ⟨0, ![]⟩
abbrev S1000000x1 : Shape := ⟨2, ![1000000, 1]⟩

abbrev nBuf : Space → Nat
  | .hbm => 65
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000x64, .f32⟩
  | .hbm, ⟨3, _⟩ => ⟨S200000x1, .f32⟩
  | .hbm, ⟨4, _⟩ => ⟨S200000x64, .f32⟩
  | .hbm, ⟨5, _⟩ => ⟨S64x64, .f32⟩
  | .hbm, ⟨6, _⟩ => ⟨S64x64, .f32⟩
  | .hbm, ⟨7, _⟩ => ⟨S200000x64, .f32⟩
  | .hbm, ⟨8, _⟩ => ⟨S200000x64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x1, .f32⟩
  | .hbm, ⟨18, _⟩ => ⟨S64x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S200000x64, .f32⟩
  | .hbm, ⟨24, _⟩ => ⟨S1000000x1, .i32⟩
  | .hbm, ⟨25, _⟩ => ⟨S200000x64, .f32⟩
  | .hbm, ⟨26, _⟩ => ⟨S200000x64, .f32⟩
  | .hbm, ⟨27, _⟩ => ⟨S200000x64, .f32⟩
  | .hbm, ⟨28, _⟩ => ⟨S64x64, .f32⟩
  | .hbm, ⟨29, _⟩ => ⟨S1000000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S200000x64, .f32⟩
  | .hbm, ⟨44, _⟩ => ⟨S1000000x1, .i32⟩
  | .hbm, ⟨45, _⟩ => ⟨S200000x64, .f32⟩
  | .hbm, ⟨46, _⟩ => ⟨S200000x64, .f32⟩
  | .hbm, ⟨47, _⟩ => ⟨S200000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S200000x64, .f32⟩
  | .hbm, ⟨61, _⟩ => ⟨S1000000x1, .i32⟩
  | .hbm, ⟨62, _⟩ => ⟨S200000x64, .f32⟩
  | .hbm, ⟨63, _⟩ => ⟨S200000x64, .f32⟩
  | .hbm, ⟨64, _⟩ => ⟨S200000x64, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bcast_S1000000x1_S1000000x64_0_1 : S1000000x1.BroadcastsInDim S1000000x64 (![0, 1] : Fin 2 → Fin S1000000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  gather_S200000x1_S1000000x1_S1000000x1_1_0_n_n_0_1_11_wf : GatherDims.WF S200000x1 S1000000x1 S1000000x1 [1] [0] [] [0] [] 1 ![1, 1]
  dot_S1000000x64_S64x64_S1000000x64_1_0_0_1_n_n_wf : DotDims.WF S1000000x64 S64x64 S1000000x64 [1] [0] [0] [1] [] []
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]

variable [Facts₀]

def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf

class Facts : Prop extends Facts₀ where

variable [Facts]
-- ==== Proof.Outcome.lean ====
/-
  The whole program's run, with its three results named.

  The program is four stretches in a row: host operations, the edge kernel over 200 blocks of edges, host operations
  (the three sums by destination), the node kernel over 40 blocks of nodes.  Every weakly fair execution runs through
  them in order and ends; at the end each of the three result buffers holds what the last stretch's boundary contents
  say (`W4`, the node kernel's arrays folded over the contents before it), and the nine argument buffers hold what they
  were launched with.
-/
import proofs.«148145_j69131793596496_2_alg».proof.Proof.Gen.KernelIdeal.Frame

set_option maxRecDepth 16384

noncomputable section

namespace Cert.KernelIdeal.Outcome

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the three results at the last boundary's contents and the arguments as
    launched. -/
theorem run : θ_run defs (onTc (τ := τ) (main (F := F))) ⟨m, fun _ => 0, ρ⟩ (fun r => ∀ c : Dev nD,
      r.2.mem ((c.tc : Thread nD τ).loc main_v39_1) = W4 m ρ c (Proc.devRef .tc main_v39_1)
      ∧ r.2.mem ((c.tc : Thread nD τ).loc main_v39_0) = W4 m ρ c (Proc.devRef .tc main_v39_0)
      ∧ r.2.mem ((c.tc : Thread nD τ).loc main_v39_2) = W4 m ρ c (Proc.devRef .tc main_v39_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39_1 (by decide)),
       h c _ (mem_uc main_v39_0 (by decide)),
       h c _ (mem_uc main_v39_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The three results are the node kernel's three output arrays after its last block. -/
theorem result_rst (c : Dev nD) : W4 m ρ c (Proc.devRef .tc main_v39_1) = (dat1 (V3 m ρ) c).arrAt 5 cfg1.N := W4_arr m ρ c 5
theorem result_rst_re (c : Dev nD) : W4 m ρ c (Proc.devRef .tc main_v39_0) = (dat1 (V3 m ρ) c).arrAt 4 cfg1.N := W4_arr m ρ c 4
theorem result_rst_id (c : Dev nD) : W4 m ρ c (Proc.devRef .tc main_v39_2) = (dat1 (V3 m ρ) c).arrAt 6 cfg1.N := W4_arr m ρ c 6

end Cert.KernelIdeal.Outcome

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Stored.lean ====
/-
  What each kernel body stores, read at one entry, over the extended reals.

  The edge kernel works on a block of 5000 edges: `x` the block of edge features [5000, 64], `w` a [64, 64] weight
  matrix already transposed, `c` the block's column of source coefficients [5000, 1], `g` a block of gathered,
  pre-scaled node rows [5000, 64].  Its first store holds `(x · w) ⊙ c`: entry `(p, q)` is
  `(∑ k, x (p, k) · w (k, q)) · c (p, 0)`; its second holds `g + (x · w) ⊙ c`.  Narrowing `x` to a shorter float
  format changes nothing at exact values, and the matrix product into a zero accumulator is the plain sum.

  The node kernel works on a block of 5000 nodes: it stores `h ⊙ c`, entry `(p, q)` being `h (p, q) · c (p, 0)`.
-/
import proofs.«148145_j69131793596496_2_alg».proof.Proof.Gen.KernelIdeal.Skeleton
import proofs.«148145_j69131793596496_2_alg».proof.Proof.LibBroadcast
import proofs.«148145_j69131793596496_2_alg».proof.Proof.LibPlainProduct
import Idealize.ShloMosaic.Lib.ValueIdx
import Idealize.ShloMosaic.Lib.Pipeline.Value

noncomputable section

open scoped BigOperators

namespace Cert.KernelIdeal.Stored

open Idealize.ShloMosaic Idealize.ShloMosaic.ValueIdx Cert.KernelIdeal Cert.KernelIdeal.Gen

/-- The edge kernel's first store at `(p, q)`: row `p` of the block times column `q` of the weights, scaled by the
    row's coefficient. -/
theorem scaled_product_apply (x : Vec Ideal S5000x64 .f32) (w : Vec Ideal S64x64 .bf16) (c : Vec Ideal S5000x1 .f32)
    (p : Fin 5000) (q : Fin 64) :
    k0_pay3 (F := Ideal) x w c (ix2 p q) = (∑ k : Fin 64, x (ix2 p k) * w (ix2 k q)) * c (ix2 p (0 : Fin 1)) := by
  have prod : matmul dot_S5000x64_S64x64_S5000x64_1_0_0_1_n_n none (truncf .bf16 x bitsLt_bf16_f32 : FVec Ideal S5000x64 .bf16)
      (w : FVec Ideal S64x64 .bf16) (constant S5000x64 .f32 0x00000000#32) (ix2 p q) = ∑ k : Fin 64, x (ix2 p k) * w (ix2 k q) :=
    Cert.PlainProduct.matmul_nn_apply (φ₁ := .bf16) (φ₂ := .bf16) dot_S5000x64_S64x64_S5000x64_1_0_0_1_n_n.wf none
      (truncf .bf16 x bitsLt_bf16_f32 : FVec Ideal S5000x64 .bf16) (w : FVec Ideal S64x64 .bf16) p q
  unfold k0_pay3 k0_pay1 k0_pay2
  dsimp only
  rw [mulf_apply, shapeCast_self, shapeCast_self, Cert.Layout.broadcastTo_a1_ab_apply, prod]

/-- The edge kernel's second store at `(p, q)`: the gathered row's entry plus the scaled product. -/
theorem shifted_product_apply (x : Vec Ideal S5000x64 .f32) (w : Vec Ideal S64x64 .bf16) (c : Vec Ideal S5000x1 .f32)
    (g : Vec Ideal S5000x64 .f32) (p : Fin 5000) (q : Fin 64) :
    k0_pay4 (F := Ideal) x w c g (ix2 p q)
      = g (ix2 p q) + (∑ k : Fin 64, x (ix2 p k) * w (ix2 k q)) * c (ix2 p (0 : Fin 1)) := by
  have prod : matmul dot_S5000x64_S64x64_S5000x64_1_0_0_1_n_n none (truncf .bf16 x bitsLt_bf16_f32 : FVec Ideal S5000x64 .bf16)
      (w : FVec Ideal S64x64 .bf16) (constant S5000x64 .f32 0x00000000#32) (ix2 p q) = ∑ k : Fin 64, x (ix2 p k) * w (ix2 k q) :=
    Cert.PlainProduct.matmul_nn_apply (φ₁ := .bf16) (φ₂ := .bf16) dot_S5000x64_S64x64_S5000x64_1_0_0_1_n_n.wf none
      (truncf .bf16 x bitsLt_bf16_f32 : FVec Ideal S5000x64 .bf16) (w : FVec Ideal S64x64 .bf16) p q
  unfold k0_pay4 k0_pay1 k0_pay2
  dsimp only
  rw [addf_apply, mulf_apply, shapeCast_self, shapeCast_self, shapeCast_self, Cert.Layout.broadcastTo_a1_ab_apply, prod]

/-- The node kernel's three stores at `(p, q)`: the aggregated entry times the node's coefficient. -/
theorem scaled1_apply (c : Vec Ideal S5000x1 .f32) (h : Vec Ideal S5000x64 .f32) (p : Fin 5000) (q : Fin 64) :
    k1_pay1 (F := Ideal) c h (ix2 p q) = h (ix2 p q) * c (ix2 p (0 : Fin 1)) := by
  unfold k1_pay1
  rw [mulf_apply, shapeCast_self, Cert.Layout.broadcastTo_a1_ab_apply]

theorem scaled2_apply (c : Vec Ideal S5000x1 .f32) (h : Vec Ideal S5000x64 .f32) (p : Fin 5000) (q : Fin 64) :
    k1_pay2 (F := Ideal) c h (ix2 p q) = h (ix2 p q) * c (ix2 p (0 : Fin 1)) := by
  unfold k1_pay2
  rw [mulf_apply, shapeCast_self, Cert.Layout.broadcastTo_a1_ab_apply]

theorem scaled3_apply (c : Vec Ideal S5000x1 .f32) (h : Vec Ideal S5000x64 .f32) (p : Fin 5000) (q : Fin 64) :
    k1_pay3 (F := Ideal) c h (ix2 p q) = h (ix2 p q) * c (ix2 p (0 : Fin 1)) := by
  unfold k1_pay3
  rw [mulf_apply, shapeCast_self, Cert.Layout.broadcastTo_a1_ab_apply]

end Cert.KernelIdeal.Stored

end
-- ==== Proof.EdgeArrays.lean ====
/-
  The edge kernel's two output arrays, whole.

  The kernel's grid has 200 points; point `t` works on edges `5000 t … 5000 t + 4999`: its blocks of the edge features,
  of the source coefficients and of the gathered rows are those rows of their arrays, the two weight matrices are
  read whole at every point, and the two output blocks are written back to those rows.  So after the last point the
  first output array holds, at edge `e` and column `q`, `(∑ k, feat (e, k) · w₁ (k, q)) · coef (e, 0)`, and the second
  `rows (e, q) + (∑ k, feat (e, k) · w₂ (k, q)) · coef (e, 0)` — whatever the arrays held when the kernel was entered.
-/
import proofs.«148145_j69131793596496_2_alg».proof.Proof.Gen.KernelIdeal.Frame
import proofs.«148145_j69131793596496_2_alg».proof.Proof.Stored
import Idealize.ShloMosaic.Lib.Pipeline.Value
import Idealize.ShloMosaic.Lib.ValueIdx

set_option maxRecDepth 16384

noncomputable section

open scoped BigOperators

namespace Cert.KernelIdeal.Edge

open Idealize.ShloMosaic Idealize.ShloMosaic.TcCoe Idealize.ShloMosaic.ValueIdx
open Idealize.ShloMosaic.Pipeline (Dat Cfg Window)
open Cert.KernelIdeal Cert.KernelIdeal.Gen

/-- The scaled products `(feat · w) ⊙ coef`, edge by edge. -/
def scaledProducts (feat : FVec Ideal S1000000x64 .f32) (coef : FVec Ideal S1000000x1 .f32) (w : FVec Ideal S64x64 .bf16) :
    FVec Ideal S1000000x64 .f32 :=
  fun i => (∑ k : Fin 64, feat (ix2 (i 0 : Fin 1000000) k) * w (ix2 k (i 1 : Fin 64))) * coef (ix2 (i 0 : Fin 1000000) (0 : Fin 1))

/-- The gathered rows plus the scaled products. -/
def shiftedProducts (feat : FVec Ideal S1000000x64 .f32) (coef : FVec Ideal S1000000x1 .f32) (w : FVec Ideal S64x64 .bf16)
    (rows : FVec Ideal S1000000x64 .f32) : FVec Ideal S1000000x64 .f32 :=
  fun i => rows i + scaledProducts feat coef w i

theorem zero_corner : (![0, 0] : Fin 2 → Nat) = fun _ => 0 := funext fun a => by fin_cases a <;> rfl

/-- The edge that entry `p` of point `t`'s blocks is. -/
def edgeOf (t : Fin cfg0.N) (p : Fin 5000) : Fin 1000000 :=
  ⟨t.val * 5000 + p.val, by have := (show t.val < 200 from t.isLt); have := p.isLt; omega⟩

/-- The printed index maps over the grid: the five edge-indexed windows are at block `t` of their first axis, the two
    weight windows at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section AtEntry
variable (V : (c : Dev nD) → (b : Ref sig .tc) → Buf (Elt Ideal) ((c : Thread nD τ).loc b))

/-- Point `t`'s block of the edge features is rows `5000 t …` of the array. -/
theorem read_feat (c : Dev nD) (t : Fin cfg0.N) (p : Fin 5000) (k : Fin 64) :
    iblk0 V c 0 t (ix2 p k) = V c main_arg2 (ix2 (edgeOf t p) k) := by
  obtain ⟨e0, e1, -⟩ := index_maps t
  show V c main_arg2 (((cfg0.win 0).blk t).view.emb (ix2 p k)) = _
  refine congrArg (V c main_arg2) ?_
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- Point `t`'s block of the source coefficients is rows `5000 t …` of the column. -/
theorem read_coef (c : Dev nD) (t : Fin cfg0.N) (p : Fin 5000) :
    iblk0 V c 1 t (ix2 p (0 : Fin 1)) = V c main_v10 (ix2 (edgeOf t p) (0 : Fin 1)) := by
  obtain ⟨-, -, e0, e1, -⟩ := index_maps t
  show V c main_v10 (((cfg0.win 1).blk t).view.emb (ix2 p (0 : Fin 1))) = _
  refine congrArg (V c main_v10) ?_
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

/-- Point `t`'s block of the gathered rows is rows `5000 t …` of the array. -/
theorem read_rows (c : Dev nD) (t : Fin cfg0.N) (p : Fin 5000) (q : Fin 64) :
    iblk0 V c 2 t (ix2 p q) = V c main_v17 (ix2 (edgeOf t p) q) := by
  obtain ⟨-, -, -, -, e0, e1, -⟩ := index_maps t
  show V c main_v17 (((cfg0.win 2).blk t).view.emb (ix2 p q)) = _
  refine congrArg (V c main_v17) ?_
  funext a; apply Fin.ext
  match a with
  | ⟨0, _⟩ => show win0_2.index t (0 : Fin 2) * 5000 + 1 * p.val = t.val * 5000 + p.val; omega
  | ⟨1, _⟩ => show win0_2.index t (1 : Fin 2) * 64 + 1 * q.val = q.val; omega

/-- Every point reads the first weight matrix whole. -/
theorem read_w1 (c : Dev nD) (t : Fin cfg0.N) (k q : Fin 64) :
    iblk0 V c 3 t (ix2 k q) = V c main_v26 (ix2 k q) := by
  obtain ⟨-, -, -, -, -, -, e0, e1, -⟩ := index_maps t
  show V c main_v26 (((cfg0.win 3).blk t).view.emb (ix2 k q)) = _
  refine congrArg (V c main_v26) ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- Every point reads the second weight matrix whole. -/
theorem read_w2 (c : Dev nD) (t : Fin cfg0.N) (k q : Fin 64) :
    iblk0 V c 4 t (ix2 k q) = V c main_v28 (ix2 k q) := by
  obtain ⟨-, -, -, -, -, -, -, -, e0, e1, -⟩ := index_maps t
  show V c main_v28 (((cfg0.win 4).blk t).view.emb (ix2 k q)) = _
  refine congrArg (V c main_v28) ?_
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- Entry `(p, q)` of point `t`'s first output block sits at edge `5000 t + p`, column `q` of its array. -/
theorem place_out1 (t : Fin cfg0.N) (p : Fin 5000) (q : Fin 64) :
    ((cfg0.win 5).blk t).view.emb (ix2 p q) = ix2 (edgeOf t p) q := by
  obtain ⟨-, -, -, -, -, -, -, -, -, -, e0, e1, -⟩ := index_maps t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- What point `t` writes back to the first output is block `t` of the scaled products of the entry contents. -/
theorem flushed_out1 (c : Dev nD) (t : Fin cfg0.N) :
    (dat0 V c).flushed 5 t
      = ((cfg0.win 5).blk t).view.read (Elt Ideal) (scaledProducts (V c main_arg2) (V c main_v10) (V c main_v26)) := by
  show (cfg0.win 5).cut (grid0.coords t) ((dat0 V c).after 5 t) = _
  rw [after0_5]
  unfold out0_5
  rw [View.canon_unit_zero zero_corner]
  simp only [View.ld_unit_zero (S := S5000x64) zero_corner, View.ld_unit_zero (S := S64x64) zero_corner,
    View.ld_unit_zero (S := S5000x1) zero_corner]
  funext j
  obtain ⟨p, q, rfl⟩ : ∃ (p : Fin 5000) (q : Fin 64), j = ix2 p q := ⟨j 0, j 1, eq_ix2 j⟩
  show k0_pay3 (iblk0 V c 0 t) (iblk0 V c 3 t) (iblk0 V c 1 t) (ix2 p q)
    = scaledProducts (V c main_arg2) (V c main_v10) (V c main_v26) (((cfg0.win 5).blk t).view.emb (ix2 p q))
  rw [place_out1 t p q]
  refine (Stored.scaled_product_apply (iblk0 V c 0 t) (iblk0 V c 3 t) (iblk0 V c 1 t) p q).trans ?_
  simp only [read_feat V c t, read_w1 V c t, read_coef V c t]
  rfl

/-- An index of the first output array is in point `t`'s block iff each coordinate is in the block's range. -/
theorem mem_block1 (t : Fin cfg0.N) (i : S1000000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v29_0).slice (win0_5.rect t)).set ↔ _
  rw [View.set_slice_whole, Rect.mem_set_unit]
  exact Iff.rfl

/-- Every edge is in the block of the point `e / 5000`. -/
theorem cover1 (i : S1000000x64.Idx) :
    ∃ t : Fin cfg0.N, (cfg0.win 5).flush t = true ∧ i ∈ ((cfg0.win 5).blk t).view.set := by
  have h0 : (i 0).val < 1000000 := (i 0).isLt
  have h1 : (i 1).val < 64 := (i 1).isLt
  have ht : (i 0).val / 5000 < 200 := by omega
  obtain ⟨-, -, -, -, -, -, -, -, -, -, e0, e1, -⟩ := index_maps ⟨(i 0).val / 5000, ht⟩
  refine ⟨⟨(i 0).val / 5000, ht⟩, flush0_5 _, ?_⟩
  rw [mem_block1]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    omega

/-- THE FIRST OUTPUT ARRAY after the last point: the scaled products of the entry contents. -/
theorem out1 (c : Dev nD) :
    (dat0 V c).arrAt 5 cfg0.N = scaledProducts (V c main_arg2) (V c main_v10) (V c main_v26) :=
  (dat0 V c).arrAt_eq_of_cover 5 _ (fun t _ => flushed_out1 V c t) cover1

/-- Entry `(p, q)` of point `t`'s second output block sits at edge `5000 t + p`, column `q` of its array. -/
theorem place_out2 (t : Fin cfg0.N) (p : Fin 5000) (q : Fin 64) :
    ((cfg0.win 6).blk t).view.emb (ix2 p q) = ix2 (edgeOf t p) q := by
  obtain ⟨-, -, -, -, -, -, -, -, -, -, -, -, e0, e1⟩ := index_maps t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-- What point `t` writes back to the second output is block `t` of the gathered rows plus the scaled products. -/
theorem flushed_out2 (c : Dev nD) (t : Fin cfg0.N) :
    (dat0 V c).flushed 6 t
      = ((cfg0.win 6).blk t).view.read (Elt Ideal)
          (shiftedProducts (V c main_arg2) (V c main_v10) (V c main_v28) (V c main_v17)) := by
  show (cfg0.win 6).cut (grid0.coords t) ((dat0 V c).after 6 t) = _
  rw [after0_6]
  unfold out0_6
  rw [View.canon_unit_zero zero_corner]
  simp only [View.ld_unit_zero (S := S5000x64) zero_corner, View.ld_unit_zero (S := S64x64) zero_corner,
    View.ld_unit_zero (S := S5000x1) zero_corner]
  funext j
  obtain ⟨p, q, rfl⟩ : ∃ (p : Fin 5000) (q : Fin 64), j = ix2 p q := ⟨j 0, j 1, eq_ix2 j⟩
  show k0_pay4 (iblk0 V c 0 t) (iblk0 V c 4 t) (iblk0 V c 1 t) (iblk0 V c 2 t) (ix2 p q)
    = shiftedProducts (V c main_arg2) (V c main_v10) (V c main_v28) (V c main_v17) (((cfg0.win 6).blk t).view.emb (ix2 p q))
  rw [place_out2 t p q]
  refine (Stored.shifted_product_apply (iblk0 V c 0 t) (iblk0 V c 4 t) (iblk0 V c 1 t) (iblk0 V c 2 t) p q).trans ?_
  simp only [read_feat V c t, read_w2 V c t, read_coef V c t, read_rows V c t]
  rfl

/-- An index of the second output array is in point `t`'s block iff each coordinate is in the block's range. -/
theorem mem_block2 (t : Fin cfg0.N) (i : S1000000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v29_1).slice (win0_6.rect t)).set ↔ _
  rw [View.set_slice_whole, Rect.mem_set_unit]
  exact Iff.rfl

/-- Every edge is in the block of the point `e / 5000`. -/
theorem cover2 (i : S1000000x64.Idx) :
    ∃ t : Fin cfg0.N, (cfg0.win 6).flush t = true ∧ i ∈ ((cfg0.win 6).blk t).view.set := by
  have h0 : (i 0).val < 1000000 := (i 0).isLt
  have h1 : (i 1).val < 64 := (i 1).isLt
  have ht : (i 0).val / 5000 < 200 := by omega
  obtain ⟨-, -, -, -, -, -, -, -, -, -, -, -, e0, e1⟩ := index_maps ⟨(i 0).val / 5000, ht⟩
  refine ⟨⟨(i 0).val / 5000, ht⟩, flush0_6 _, ?_⟩
  rw [mem_block2]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 64 ≤ (i 1).val
      ∧ (i 1).val < win0_6.index ⟨(i 0).val / 5000, ht⟩ (1 : Fin 2) * 64 + 64
    omega

/-- THE SECOND OUTPUT ARRAY after the last point: the gathered rows plus the scaled products of the entry contents. -/
theorem out2 (c : Dev nD) :
    (dat0 V c).arrAt 6 cfg0.N = shiftedProducts (V c main_arg2) (V c main_v10) (V c main_v28) (V c main_v17) :=
  (dat0 V c).arrAt_eq_of_cover 6 _ (fun t _ => flushed_out2 V c t) cover2

end AtEntry

end Cert.KernelIdeal.Edge

end
-- ==== Proof.NodeArrays.lean ====
/-
  The node kernel's three output arrays, whole.

  The kernel's grid has 40 points; point `t` works on nodes `5000 t … 5000 t + 4999`: its blocks of the three
  aggregated arrays and of the node coefficients are those rows, and its three output blocks are written back to
  those rows.  So after the last point each output array holds, at node `n` and column `q`, the aggregated entry
  `agg (n, q)` times the node's coefficient `coef (n, 0)` — whatever the arrays held when the kernel was entered.
-/
import proofs.«148145_j69131793596496_2_alg».proof.Proof.Gen.KernelIdeal.Frame
import proofs.«148145_j69131793596496_2_alg».proof.Proof.Stored
import Idealize.ShloMosaic.Lib.Pipeline.Value
import Idealize.ShloMosaic.Lib.ValueIdx

set_option maxRecDepth 16384

noncomputable section

namespace Cert.KernelIdeal.Node

open Idealize.ShloMosaic Idealize.ShloMosaic.TcCoe Idealize.ShloMosaic.ValueIdx
open Idealize.ShloMosaic.Pipeline (Dat Cfg Window)
open Cert.KernelIdeal Cert.KernelIdeal.Gen

/-- An `[N, 64]` array scaled row by row by an `[N, 1]` column. -/
def scaledByNode (agg : FVec Ideal S200000x64 .f32) (coef : FVec Ideal S200000x1 .f32) : FVec Ideal S200000x64 .f32 :=
  fun i => agg i * coef (ix2 (i 0 : Fin 200000) (0 : Fin 1))

theorem zero_corner : (![0, 0] : Fin 2 → Nat) = fun _ => 0 := funext fun a => by fin_cases a <;> rfl

/-- The node that entry `p` of point `t`'s blocks is. -/
def nodeOf (t : Fin cfg1.N) (p : Fin 5000) : Fin 200000 :=
  ⟨t.val * 5000 + p.val, by have := (show t.val < 40 from t.isLt); have := p.isLt; omega⟩

/-- The printed index maps over the grid: every window is at block `t` of its first axis. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

section AtEntry
variable (V : (c : Dev nD) → (b : Ref sig .tc) → Buf (Elt Ideal) ((c : Thread nD τ).loc b))

/-- Point `t`'s block of the first aggregated array is rows `5000 t …` of it. -/
theorem read_agg1 (c : Dev nD) (t : Fin cfg1.N) (p : Fin 5000) (q : Fin 64) :
    iblk1 V c 0 t (ix2 p q) = V c main_v32 (ix2 (nodeOf t p) q) := by
  obtain ⟨e0, e1, -⟩ := index_maps t
  show V c main_v32 (((cfg1.win 0).blk t).view.emb (ix2 p q)) = _
  refine congrArg (V c main_v32) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- Point `t`'s block of the second aggregated array is rows `5000 t …` of it. -/
theorem read_agg2 (c : Dev nD) (t : Fin cfg1.N) (p : Fin 5000) (q : Fin 64) :
    iblk1 V c 1 t (ix2 p q) = V c main_v35 (ix2 (nodeOf t p) q) := by
  obtain ⟨-, -, e0, e1, -⟩ := index_maps t
  show V c main_v35 (((cfg1.win 1).blk t).view.emb (ix2 p q)) = _
  refine congrArg (V c main_v35) ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * q.val = q.val; omega

/-- Point `t`'s block of the third aggregated array is rows `5000 t …` of it. -/
theorem read_agg3 (c : Dev nD) (t : Fin cfg1.N) (p : Fin 5000) (q : Fin 64) :
    iblk1 V c 2 t (ix2 p q) = V c main_v38 (ix2 (nodeOf t p) q) := by
  obtain ⟨-, -, -, -, e0, e1, -⟩ := index_maps t
  show V c main_v38 (((cfg1.win 2).blk t).view.emb (ix2 p q)) = _
  refine congrArg (V c main_v38) ?_
  funext a; apply Fin.ext
  match a with
  | ⟨0, _⟩ => show win1_2.index t (0 : Fin 2) * 5000 + 1 * p.val = t.val * 5000 + p.val; omega
  | ⟨1, _⟩ => show win1_2.index t (1 : Fin 2) * 64 + 1 * q.val = q.val; omega

/-- Point `t`'s block of the node coefficients is rows `5000 t …` of the column. -/
theorem read_coef (c : Dev nD) (t : Fin cfg1.N) (p : Fin 5000) :
    iblk1 V c 3 t (ix2 p (0 : Fin 1)) = V c main_arg3 (ix2 (nodeOf t p) (0 : Fin 1)) := by
  obtain ⟨-, -, -, -, -, -, e0, e1, -⟩ := index_maps t
  show V c main_arg3 (((cfg1.win 3).blk t).view.emb (ix2 p (0 : Fin 1))) = _
  refine congrArg (V c main_arg3) ?_
  funext a; apply Fin.ext
  match a with
  | ⟨0, _⟩ => show win1_3.index t (0 : Fin 2) * 5000 + 1 * p.val = t.val * 5000 + p.val; omega
  | ⟨1, _⟩ => show win1_3.index t (1 : Fin 2) * 1 + 1 * 0 = 0; omega

/-- Entry `(p, q)` of point `t`'s block of the first result sits at node `5000 t + p`, column `q` of its array. -/
theorem place_out_re (t : Fin cfg1.N) (p : Fin 5000) (q : Fin 64) :
    ((cfg1.win 4).blk t).view.emb (ix2 p q) = ix2 (nodeOf t p) q := by
  obtain ⟨-, -, -, -, -, -, -, -, e0, e1, -⟩ := index_maps t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point `t` writes back to the first result is block `t` of the aggregated array scaled node by node. -/
theorem flushed_out_re (c : Dev nD) (t : Fin cfg1.N) :
    (dat1 V c).flushed 4 t
      = ((cfg1.win 4).blk t).view.read (Elt Ideal) (scaledByNode (V c main_v32) (V c main_arg3)) := by
  show (cfg1.win 4).cut (grid1.coords t) ((dat1 V c).after 4 t) = _
  rw [after1_4]
  unfold out1_4
  rw [View.canon_unit_zero zero_corner]
  simp only [View.ld_unit_zero (S := S5000x64) zero_corner, View.ld_unit_zero (S := S5000x1) zero_corner]
  funext j
  obtain ⟨p, q, rfl⟩ : ∃ (p : Fin 5000) (q : Fin 64), j = ix2 p q := ⟨j 0, j 1, eq_ix2 j⟩
  show k1_pay1 (iblk1 V c 3 t) (iblk1 V c 0 t) (ix2 p q)
    = scaledByNode (V c main_v32) (V c main_arg3) (((cfg1.win 4).blk t).view.emb (ix2 p q))
  rw [place_out_re t p q]
  refine (Stored.scaled1_apply (iblk1 V c 3 t) (iblk1 V c 0 t) p q).trans ?_
  rw [read_agg1 V c t, read_coef V c t]
  rfl

/-- An index of the array of the first result is in point `t`'s block iff each coordinate is in the block's range. -/
theorem mem_block_out_re (t : Fin cfg1.N) (i : S200000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v39_0).slice (win1_4.rect t)).set ↔ _
  rw [View.set_slice_whole, Rect.mem_set_unit]
  exact Iff.rfl

/-- Every node is in the block of the point `n / 5000`. -/
theorem cover_out_re (i : S200000x64.Idx) :
    ∃ t : Fin cfg1.N, (cfg1.win 4).flush t = true ∧ i ∈ ((cfg1.win 4).blk t).view.set := by
  have h0 : (i 0).val < 200000 := (i 0).isLt
  have h1 : (i 1).val < 64 := (i 1).isLt
  have ht : (i 0).val / 5000 < 40 := by omega
  obtain ⟨-, -, -, -, -, -, -, -, e0, e1, -⟩ := index_maps ⟨(i 0).val / 5000, ht⟩
  refine ⟨⟨(i 0).val / 5000, ht⟩, flush1_4 _, ?_⟩
  rw [mem_block_out_re]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    omega

/-- THE ARRAY of the first result after the last point: the aggregated array as entered, scaled node by node. -/
theorem out_re (c : Dev nD) : (dat1 V c).arrAt 4 cfg1.N = scaledByNode (V c main_v32) (V c main_arg3) :=
  (dat1 V c).arrAt_eq_of_cover 4 _ (fun t _ => flushed_out_re V c t) cover_out_re

/-- Entry `(p, q)` of point `t`'s block of the second result sits at node `5000 t + p`, column `q` of its array. -/
theorem place_out_rst (t : Fin cfg1.N) (p : Fin 5000) (q : Fin 64) :
    ((cfg1.win 5).blk t).view.emb (ix2 p q) = ix2 (nodeOf t p) q := by
  obtain ⟨-, -, -, -, -, -, -, -, -, -, e0, e1, -⟩ := index_maps t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

/-- What point `t` writes back to the second result is block `t` of the aggregated array scaled node by node. -/
theorem flushed_out_rst (c : Dev nD) (t : Fin cfg1.N) :
    (dat1 V c).flushed 5 t
      = ((cfg1.win 5).blk t).view.read (Elt Ideal) (scaledByNode (V c main_v35) (V c main_arg3)) := by
  show (cfg1.win 5).cut (grid1.coords t) ((dat1 V c).after 5 t) = _
  rw [after1_5]
  unfold out1_5
  rw [View.canon_unit_zero zero_corner]
  simp only [View.ld_unit_zero (S := S5000x64) zero_corner, View.ld_unit_zero (S := S5000x1) zero_corner]
  funext j
  obtain ⟨p, q, rfl⟩ : ∃ (p : Fin 5000) (q : Fin 64), j = ix2 p q := ⟨j 0, j 1, eq_ix2 j⟩
  show k1_pay2 (iblk1 V c 3 t) (iblk1 V c 1 t) (ix2 p q)
    = scaledByNode (V c main_v35) (V c main_arg3) (((cfg1.win 5).blk t).view.emb (ix2 p q))
  rw [place_out_rst t p q]
  refine (Stored.scaled2_apply (iblk1 V c 3 t) (iblk1 V c 1 t) p q).trans ?_
  rw [read_agg2 V c t, read_coef V c t]
  rfl

/-- An index of the array of the second result is in point `t`'s block iff each coordinate is in the block's range. -/
theorem mem_block_out_rst (t : Fin cfg1.N) (i : S200000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v39_1).slice (win1_5.rect t)).set ↔ _
  rw [View.set_slice_whole, Rect.mem_set_unit]
  exact Iff.rfl

/-- Every node is in the block of the point `n / 5000`. -/
theorem cover_out_rst (i : S200000x64.Idx) :
    ∃ t : Fin cfg1.N, (cfg1.win 5).flush t = true ∧ i ∈ ((cfg1.win 5).blk t).view.set := by
  have h0 : (i 0).val < 200000 := (i 0).isLt
  have h1 : (i 1).val < 64 := (i 1).isLt
  have ht : (i 0).val / 5000 < 40 := by omega
  obtain ⟨-, -, -, -, -, -, -, -, -, -, e0, e1, -⟩ := index_maps ⟨(i 0).val / 5000, ht⟩
  refine ⟨⟨(i 0).val / 5000, ht⟩, flush1_5 _, ?_⟩
  rw [mem_block_out_rst]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    omega

/-- THE ARRAY of the second result after the last point: the aggregated array as entered, scaled node by node. -/
theorem out_rst (c : Dev nD) : (dat1 V c).arrAt 5 cfg1.N = scaledByNode (V c main_v35) (V c main_arg3) :=
  (dat1 V c).arrAt_eq_of_cover 5 _ (fun t _ => flushed_out_rst V c t) cover_out_rst

/-- Entry `(p, q)` of point `t`'s block of the third result sits at node `5000 t + p`, column `q` of its array. -/
theorem place_out_id (t : Fin cfg1.N) (p : Fin 5000) (q : Fin 64) :
    ((cfg1.win 6).blk t).view.emb (ix2 p q) = ix2 (nodeOf t p) q := by
  obtain ⟨-, -, -, -, -, -, -, -, -, -, -, -, e0, e1⟩ := index_maps t
  funext a; apply Fin.ext
  match a with
  | ⟨0, _⟩ => show win1_6.index t (0 : Fin 2) * 5000 + 1 * p.val = t.val * 5000 + p.val; omega
  | ⟨1, _⟩ => show win1_6.index t (1 : Fin 2) * 64 + 1 * q.val = q.val; omega

/-- What point `t` writes back to the third result is block `t` of the aggregated array scaled node by node. -/
theorem flushed_out_id (c : Dev nD) (t : Fin cfg1.N) :
    (dat1 V c).flushed 6 t
      = ((cfg1.win 6).blk t).view.read (Elt Ideal) (scaledByNode (V c main_v38) (V c main_arg3)) := by
  show (cfg1.win 6).cut (grid1.coords t) ((dat1 V c).after 6 t) = _
  rw [after1_6]
  unfold out1_6
  rw [View.canon_unit_zero zero_corner]
  simp only [View.ld_unit_zero (S := S5000x64) zero_corner, View.ld_unit_zero (S := S5000x1) zero_corner]
  funext j
  obtain ⟨p, q, rfl⟩ : ∃ (p : Fin 5000) (q : Fin 64), j = ix2 p q := ⟨j 0, j 1, eq_ix2 j⟩
  show k1_pay3 (iblk1 V c 3 t) (iblk1 V c 2 t) (ix2 p q)
    = scaledByNode (V c main_v38) (V c main_arg3) (((cfg1.win 6).blk t).view.emb (ix2 p q))
  rw [place_out_id t p q]
  refine (Stored.scaled3_apply (iblk1 V c 3 t) (iblk1 V c 2 t) p q).trans ?_
  rw [read_agg3 V c t, read_coef V c t]
  rfl

/-- An index of the array of the third result is in point `t`'s block iff each coordinate is in the block's range. -/
theorem mem_block_out_id (t : Fin cfg1.N) (i : S200000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v39_2).slice (win1_6.rect t)).set ↔ _
  rw [View.set_slice_whole, Rect.mem_set_unit]
  exact Iff.rfl

/-- Every node is in the block of the point `n / 5000`. -/
theorem cover_out_id (i : S200000x64.Idx) :
    ∃ t : Fin cfg1.N, (cfg1.win 6).flush t = true ∧ i ∈ ((cfg1.win 6).blk t).view.set := by
  have h0 : (i 0).val < 200000 := (i 0).isLt
  have h1 : (i 1).val < 64 := (i 1).isLt
  have ht : (i 0).val / 5000 < 40 := by omega
  obtain ⟨-, -, -, -, -, -, -, -, -, -, -, -, e0, e1⟩ := index_maps ⟨(i 0).val / 5000, ht⟩
  refine ⟨⟨(i 0).val / 5000, ht⟩, flush1_6 _, ?_⟩
  rw [mem_block_out_id]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    omega

/-- THE ARRAY of the third result after the last point: the aggregated array as entered, scaled node by node. -/
theorem out_id (c : Dev nD) : (dat1 V c).arrAt 6 cfg1.N = scaledByNode (V c main_v38) (V c main_arg3) :=
  (dat1 V c).arrAt_eq_of_cover 6 _ (fun t _ => flushed_out_id V c t) cover_out_id

end AtEntry

end Cert.KernelIdeal.Node

end
-- ==== Proof.Between.lean ====
/-
  The kernel program's three results as terms of its arguments.

  Before the edge kernel the host computes: the index column `src` (a negative index counted from the end, then laid
  as a column), the source coefficients `coef[src]`, the two node tables pre-scaled row by row by `coef` and their rows
  `src`, and the two weight matrices transposed.  The edge kernel turns these into two arrays of edge messages
  (Proof/EdgeArrays.lean); the third array of messages is the gathered rows of the second pre-scaled table, untouched
  by the kernel.  The host then sums each array of messages by destination node, and the node kernel scales each sum
  node by node by `coef` (Proof/NodeArrays.lean).  Reading each buffer back through the host operations that made it
  gives the three results as closed terms of the nine arguments.
-/
import proofs.«148145_j69131793596496_2_alg».proof.Proof.Gen.KernelIdeal.Frame
import proofs.«148145_j69131793596496_2_alg».proof.Proof.EdgeArrays
import proofs.«148145_j69131793596496_2_alg».proof.Proof.NodeArrays
import proofs.«148145_j69131793596496_2_alg».proof.Proof.Outcome
import Idealize.ShloMosaic.Lib.StableHlo.Run
import Idealize.ShloMosaic.PureOps.Ideal

set_option maxRecDepth 16384

noncomputable section

namespace Cert.KernelIdeal.Between

open Idealize.ShloMosaic Idealize.ShloMosaic.TcCoe Idealize.ShloMosaic.StableHlo Idealize.SL.Sem
open Cert.KernelIdeal Cert.KernelIdeal.Gen

/-- The index column: an index below zero counts from the end of the 200000 nodes; laid as an `[E, 1]` column. -/
def srcColumn (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 200000#32))) src)

/-- A node table scaled row by row by the coefficients. -/
def preScaled (tbl : FVec Ideal S200000x64 .f32) (coef : FVec Ideal S200000x1 .f32) : FVec Ideal S200000x64 .f32 :=
  mulf tbl (broadcastInDim S200000x64 ![0, 1] bcast_S200000x1_S200000x64_0_1 coef)

/-- An array of edge messages summed by destination node, from zero. -/
def sumByDst (dst : IVec S1000000 32) (u : FVec Ideal S1000000x64 .f32) : FVec Ideal S200000x64 .f32 :=
  Host.scatterAdd scatter_S200000x64_S1000000x1_S1000000x64_1_0_0_1
    (broadcastInDim S200000x64 ![] bcast_S_S200000x64 (constant (F := Ideal) S_ .f32 0x00000000#32))
    (broadcastInDim S1000000x1 ![0] bcast_S1000000_S1000000x1_0 dst) u

variable (m : (ℓ : Loc nD τ sig) → Buf (Elt Ideal) ℓ) (ρ : Dev nD → PrngReg)

/-! ## What the edge kernel is entered with -/

set_option maxHeartbeats 2000000 in
theorem entry_feat (c : Dev nD) : V1 m ρ c main_arg2 = (m ((c : Thread nD τ).loc main_arg2)) := by
  show StableHlo.after hostOps0 (W0 m ρ c) (Proc.devRef .tc main_arg2) = _
  after_results_simp <;> rfl

set_option maxHeartbeats 2000000 in
theorem entry_coef (c : Dev nD) :
    V1 m ρ c main_v10 = Host.gather gather_S200000x1_S1000000x1_S1000000x1_1_0_n_n_0_1_11 (m ((c : Thread nD τ).loc main_arg3)) (srcColumn (m ((c : Thread nD τ).loc main_arg0))) := by
  show StableHlo.after hostOps0 (W0 m ρ c) (Proc.devRef .tc main_v10) = _
  after_results_simp <;> rfl

set_option maxHeartbeats 2000000 in
theorem entry_rows (c : Dev nD) :
    V1 m ρ c main_v17 = Host.gather gather_S200000x64_S1000000x1_S1000000x64_1_0_n_n_0_1_164
      (preScaled (m ((c : Thread nD τ).loc main_arg7)) (m ((c : Thread nD τ).loc main_arg3))) (srcColumn (m ((c : Thread nD τ).loc main_arg0))) := by
  show StableHlo.after hostOps0 (W0 m ρ c) (Proc.devRef .tc main_v17) = _
  after_results_simp <;> rfl

set_option maxHeartbeats 2000000 in
theorem entry_w1 (c : Dev nD) :
    V1 m ρ c main_v26 = (truncf .bf16 (transpose S64x64 [1, 0] (m ((c : Thread nD τ).loc main_arg5)) transposes_S64x64_S64x64_1_0) bitsLt_bf16_f32 : FVec Ideal S64x64 .bf16) := by
  show StableHlo.after hostOps0 (W0 m ρ c) (Proc.devRef .tc main_v26) = _
  after_results_simp <;> rfl

set_option maxHeartbeats 2000000 in
theorem entry_w2 (c : Dev nD) :
    V1 m ρ c main_v28 = (truncf .bf16 (transpose S64x64 [1, 0] (m ((c : Thread nD τ).loc main_arg6)) transposes_S64x64_S64x64_1_0) bitsLt_bf16_f32 : FVec Ideal S64x64 .bf16) := by
  show StableHlo.after hostOps0 (W0 m ρ c) (Proc.devRef .tc main_v28) = _
  after_results_simp <;> rfl

/-! ## What the edge kernel leaves -/

theorem left_out1 (c : Dev nD) : W2 m ρ c (Proc.devRef .tc main_v29_0) = (dat0 (V1 m ρ) c).arrAt 5 cfg0.N := W2_arr m ρ c 5
theorem left_out2 (c : Dev nD) : W2 m ρ c (Proc.devRef .tc main_v29_1) = (dat0 (V1 m ρ) c).arrAt 6 cfg0.N := W2_arr m ρ c 6

set_option maxHeartbeats 2000000 in
theorem left_rows3 (c : Dev nD) :
    W2 m ρ c (Proc.devRef .tc main_v24) = Host.gather gather_S200000x64_S1000000x1_S1000000x64_1_0_n_n_0_1_164
      (preScaled (m ((c : Thread nD τ).loc main_arg8)) (m ((c : Thread nD τ).loc main_arg3))) (srcColumn (m ((c : Thread nD τ).loc main_arg0))) := by
  refine (W2_of_ne m ρ c main_v24 (by decide)).trans ?_
  show StableHlo.after hostOps0 (W0 m ρ c) (Proc.devRef .tc main_v24) = _
  after_results_simp <;> rfl

set_option maxHeartbeats 2000000 in
theorem left_dst (c : Dev nD) : W2 m ρ c (Proc.devRef .tc main_arg1) = (m ((c : Thread nD τ).loc main_arg1)) := by
  refine (W2_of_ne m ρ c main_arg1 (by decide)).trans ?_
  show StableHlo.after hostOps0 (W0 m ρ c) (Proc.devRef .tc main_arg1) = _
  after_results_simp <;> rfl

set_option maxHeartbeats 2000000 in
theorem left_coef (c : Dev nD) : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  after_results_simp <;> rfl

/-! ## What the node kernel is entered with -/

theorem entry_agg1 (c : Dev nD) :
    V3 m ρ c main_v32 = sumByDst (m ((c : Thread nD τ).loc main_arg1)) ((dat0 (V1 m ρ) c).arrAt 5 cfg0.N) := by
  show StableHlo.after hostOps1 (W2 m ρ c) (Proc.devRef .tc main_v32) = _
  after_results
  rw [left_dst, left_out1]
  rfl

theorem entry_agg2 (c : Dev nD) :
    V3 m ρ c main_v35 = sumByDst (m ((c : Thread nD τ).loc main_arg1)) ((dat0 (V1 m ρ) c).arrAt 6 cfg0.N) := by
  show StableHlo.after hostOps1 (W2 m ρ c) (Proc.devRef .tc main_v35) = _
  after_results
  rw [left_dst, left_out2]
  rfl

theorem entry_agg3 (c : Dev nD) :
    V3 m ρ c main_v38 = sumByDst (m ((c : Thread nD τ).loc main_arg1))
      (Host.gather gather_S200000x64_S1000000x1_S1000000x64_1_0_n_n_0_1_164 (preScaled (m ((c : Thread nD τ).loc main_arg8)) (m ((c : Thread nD τ).loc main_arg3))) (srcColumn (m ((c : Thread nD τ).loc main_arg0)))) := by
  show StableHlo.after hostOps1 (W2 m ρ c) (Proc.devRef .tc main_v38) = _
  after_results
  rw [left_dst, left_rows3]
  rfl

theorem entry_node_coef (c : Dev nD) : V3 m ρ c main_arg3 = (m ((c : Thread nD τ).loc main_arg3)) := by
  show StableHlo.after hostOps1 (W2 m ρ c) (Proc.devRef .tc main_arg3) = _
  after_results
  exact left_coef m ρ c

/-! ## The three results -/

/-- The source coefficients. -/
abbrev coefAtSrc (c : Dev nD) : FVec Ideal S1000000x1 .f32 :=
  Host.gather gather_S200000x1_S1000000x1_S1000000x1_1_0_n_n_0_1_11 (m ((c : Thread nD τ).loc main_arg3)) (srcColumn (m ((c : Thread nD τ).loc main_arg0)))

/-- The result paired with the reference's first: the sum by destination of the gathered pre-scaled rows plus the
    scaled products with the second weight matrix, scaled by the node coefficients. -/
theorem value_rst (c : Dev nD) :
    W4 m ρ c (Proc.devRef .tc main_v39_1)
      = Node.scaledByNode (sumByDst (m ((c : Thread nD τ).loc main_arg1))
          (Edge.shiftedProducts (m ((c : Thread nD τ).loc main_arg2)) (coefAtSrc m c)
            (truncf .bf16 (transpose S64x64 [1, 0] (m ((c : Thread nD τ).loc main_arg6)) transposes_S64x64_S64x64_1_0) bitsLt_bf16_f32)
            (Host.gather gather_S200000x64_S1000000x1_S1000000x64_1_0_n_n_0_1_164 (preScaled (m ((c : Thread nD τ).loc main_arg7)) (m ((c : Thread nD τ).loc main_arg3))) (srcColumn (m ((c : Thread nD τ).loc main_arg0))))))
          (m ((c : Thread nD τ).loc main_arg3)) := by
  rw [Outcome.result_rst, Node.out_rst, entry_agg2, entry_node_coef, Edge.out2, entry_feat, entry_coef, entry_w2, entry_rows]

/-- The result paired with the reference's second: the sum by destination of the scaled products with the first
    weight matrix, scaled by the node coefficients. -/
theorem value_rst_re (c : Dev nD) :
    W4 m ρ c (Proc.devRef .tc main_v39_0)
      = Node.scaledByNode (sumByDst (m ((c : Thread nD τ).loc main_arg1))
          (Edge.scaledProducts (m ((c : Thread nD τ).loc main_arg2)) (coefAtSrc m c)
            (truncf .bf16 (transpose S64x64 [1, 0] (m ((c : Thread nD τ).loc main_arg5)) transposes_S64x64_S64x64_1_0) bitsLt_bf16_f32)))
          (m ((c : Thread nD τ).loc main_arg3)) := by
  rw [Outcome.result_rst_re, Node.out_re, entry_agg1, entry_node_coef, Edge.out1, entry_feat, entry_coef, entry_w1]

/-- The result paired with the reference's third: the sum by destination of the gathered rows of the second
    pre-scaled table, scaled by the node coefficients. -/
theorem value_rst_id (c : Dev nD) :
    W4 m ρ c (Proc.devRef .tc main_v39_2)
      = Node.scaledByNode (sumByDst (m ((c : Thread nD τ).loc main_arg1))
          (Host.gather gather_S200000x64_S1000000x1_S1000000x64_1_0_n_n_0_1_164 (preScaled (m ((c : Thread nD τ).loc main_arg8)) (m ((c : Thread nD τ).loc main_arg3))) (srcColumn (m ((c : Thread nD τ).loc main_arg0)))))
          (m ((c : Thread nD τ).loc main_arg3)) := by
  rw [Outcome.result_rst_id, Node.out_id, entry_agg3, entry_node_coef]

end Cert.KernelIdeal.Between

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibUnitAxes.lean ====
/-
  A matrix carried with two leading axes of extent one, and a matrix transposed, read at an index.

  An `[1, 1, a, b]` array re-laid as `[a, b]` has at `(p, c)` the entry `(0, 0, p, c)`, and the other way round; the
  row-major position of `(0, 0, p, c)` among `1 · 1 · a · b` entries is that of `(p, c)` among `a · b`.
  The transpose of an `[a, b]` matrix has at `(p, c)` the entry `(c, p)`.
-/
import Idealize.ShloMosaic.Lib.Pipeline.Value
import Idealize.ShloMosaic.Lib.ValueIdx

noncomputable section

namespace Cert.Layout

open Idealize.ShloMosaic Idealize.ShloMosaic.ValueIdx

variable {α : Type}

/-- Dropping two leading unit axes: entry `(p, c)` of the matrix is entry `(0, 0, p, c)` of the operand. -/
theorem shapeCast_11ab_ab_apply {a b : ℕ} (v : (⟨4, ![1, 1, a, b]⟩ : Shape).Idx → α)
    (h : (⟨4, ![1, 1, a, b]⟩ : Shape).ShapeCasts ⟨2, ![a, b]⟩) (p : Fin a) (c : Fin b) :
    shapeCast (⟨2, ![a, b]⟩ : Shape) v h (ix2 p c) = v (ix4 (0 : Fin 1) (0 : Fin 1) p c) := by
  refine shapeCast_apply v h (ix2 p c) (ix4 (0 : Fin 1) (0 : Fin 1) p c) ?_
  rw [Shape.rowMajor_val_four, Shape.rowMajor_val_two]
  show ((0 * 1 + 0) * a + p.val) * b + c.val = p.val * b + c.val
  simp

/-- Adding two leading unit axes: entry `(0, 0, p, c)` of the result is entry `(p, c)` of the matrix. -/
theorem shapeCast_ab_11ab_apply {a b : ℕ} (v : (⟨2, ![a, b]⟩ : Shape).Idx → α)
    (h : (⟨2, ![a, b]⟩ : Shape).ShapeCasts ⟨4, ![1, 1, a, b]⟩) (p : Fin a) (c : Fin b) :
    shapeCast (⟨4, ![1, 1, a, b]⟩ : Shape) v h (ix4 (0 : Fin 1) (0 : Fin 1) p c) = v (ix2 p c) := by
  refine shapeCast_apply v h (ix4 (0 : Fin 1) (0 : Fin 1) p c) (ix2 p c) ?_
  rw [Shape.rowMajor_val_four, Shape.rowMajor_val_two]
  show p.val * b + c.val = ((0 * 1 + 0) * a + p.val) * b + c.val
  simp

/-- The transpose of a matrix: entry `(p, c)` is entry `(c, p)` of the operand. -/
theorem transpose_ab_apply {a b : ℕ} (v : (⟨2, ![a, b]⟩ : Shape).Idx → α)
    (h : (⟨2, ![a, b]⟩ : Shape).Transposes [1, 0] ⟨2, ![b, a]⟩) (p : Fin b) (c : Fin a) :
    transpose (⟨2, ![b, a]⟩ : Shape) [1, 0] v h (ix2 p c) = v (ix2 c p) := by
  refine transpose_apply [1, 0] v h (ix2 p c) (ix2 c p) fun ax => ?_
  match ax with
  | ⟨0, _⟩ => rfl
  | ⟨1, _⟩ => rfl

end Cert.Layout

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.Bridge.lean ====
/-
  The two programs compute the same three arrays.

  Write `s e` for the node that edge `e`'s source index names (counted from the end when negative, then brought into
  range).  Read at edge `e` and column `j`, the three arrays of edge messages are, in the reference,

      (∑ k, feat (e, k) · w₁ (j, k)) · coef (s e)
      (tbl₂ (s e, j) + ∑ k, feat (e, k) · w₂ (j, k)) · coef (s e)
      tbl₃ (s e, j) · coef (s e)

  and in the kernel program — which scales the node tables by `coef` BEFORE taking their rows, and adds the taken row
  to the already scaled product —

      (∑ k, feat (e, k) · w₁ (j, k)) · coef (s e)
      tbl₂ (s e, j) · coef (s e) + (∑ k, feat (e, k) · w₂ (j, k)) · coef (s e)
      tbl₃ (s e, j) · coef (s e).

  The first and third agree as written: taking row `s e` of a table scaled row by row gives the row scaled by
  `coef (s e)`, and the same index column names the same row in the table and in the coefficient column.  The second
  is the distributive law `a · c + b · c = (a + b) · c`, which holds on the extended reals when `a`, `b`, `c` are real
  numbers: here they are entries of finite inputs and a finite sum of products of such.  Both programs then sum each
  array by destination node with the same operation and scale node by node by `coef`, so equal messages give equal
  results.
-/
import proofs.«148145_j69131793596496_2_alg».proof.Proof.Between
import proofs.«148145_j69131793596496_2_alg».proof.Proof.Gen.ReferenceIdeal
import proofs.«148145_j69131793596496_2_alg».proof.Proof.LibRowGatherScatter
import proofs.«148145_j69131793596496_2_alg».proof.Proof.LibHostProduct
import proofs.«148145_j69131793596496_2_alg».proof.Proof.LibUnitAxes
import proofs.«148145_j69131793596496_2_alg».proof.Proof.LibRealEntries
import Idealize.ShloMosaic.Lib.ValueIdx
import Idealize.ShloMosaic.PureOps.Ideal.Laws

noncomputable section

open scoped BigOperators

namespace Cert.Bridge

open Idealize.ShloMosaic Idealize.ShloMosaic.ValueIdx Cert.RowGatherScatter Cert.RealEntries

theorem nodes_pos : 0 < 200000 := by norm_num

/-- `a · c + b · c = (a + b) · c` for real numbers among the extended reals. -/
theorem mul_add_mul_of_real {a b c : EReal} (ha : IsReal a) (hb : IsReal b) (hc : IsReal c) : a * c + b * c = (a + b) * c := by
  obtain ⟨x, rfl⟩ := ha; obtain ⟨y, rfl⟩ := hb; obtain ⟨z, rfl⟩ := hc
  rw [← EReal.coe_mul, ← EReal.coe_mul, ← EReal.coe_add, ← EReal.coe_add, ← EReal.coe_mul, add_mul]

variable (src dst : IVec ⟨1, ![1000000]⟩ 32) (feat : FVec Ideal ⟨2, ![1000000, 64]⟩ .f32) (coef : FVec Ideal ⟨2, ![200000, 1]⟩ .f32)
  (w : FVec Ideal ⟨2, ![64, 64]⟩ .f32) (tbl : FVec Ideal ⟨2, ![200000, 64]⟩ .f32)

/-! ## The reference's terms -/

section Reference
open Cert.ReferenceIdeal Cert.ReferenceIdeal.Facts₀ Cert.ReferenceIdeal.Facts

/-- The reference's index column. -/
def refColumn : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 200000#32))) src)

/-- The reference's source coefficients, laid along the 64 columns. -/
def refCoefAtSrc : FVec Ideal S1000000x64 .f32 :=
  broadcastInDim S1000000x64 ![0, 1] bcast_S1000000x1_S1000000x64_0_1
    (Host.gather gather_S200000x1_S1000000x1_S1000000x1_1_0_n_n_0_1_11 coef (refColumn src))

/-- The reference's product of the edge features with a transposed weight matrix. -/
def refProduct : FVec Ideal S1000000x64 .f32 :=
  Host.dotGeneral dot_S1000000x64_S64x64_S1000000x64_1_0_0_1_n_n none feat (transpose S64x64 [1, 0] w transposes_S64x64_S64x64_1_0)

/-- The reference's three arrays of edge messages. -/
def refMessages1 : FVec Ideal S1000000x64 .f32 := mulf (refProduct feat w) (refCoefAtSrc src coef)
def refMessages2 : FVec Ideal S1000000x64 .f32 :=
  mulf (addf (Host.gather gather_S200000x64_S1000000x1_S1000000x64_1_0_n_n_0_1_164 tbl (refColumn src)) (refProduct feat w)) (refCoefAtSrc src coef)
def refMessages3 : FVec Ideal S1000000x64 .f32 :=
  mulf (Host.gather gather_S200000x64_S1000000x1_S1000000x64_1_0_n_n_0_1_164 tbl (refColumn src)) (refCoefAtSrc src coef)

/-- The reference's result from an array of messages: summed by destination from zero, scaled node by node. -/
def refResult (u : FVec Ideal S1000000x64 .f32) : FVec Ideal S200000x64 .f32 :=
  mulf (Host.scatterAdd scatter_S200000x64_S1000000x1_S1000000x64_1_0_0_1
      (broadcastInDim S200000x64 ![] bcast_S_S200000x64 (constant (F := Ideal) S_ .f32 0x00000000#32))
      (broadcastInDim S1000000x1 ![0] bcast_S1000000_S1000000x1_0 dst) u)
    (broadcastInDim S200000x64 ![0, 1] bcast_S200000x1_S200000x64_0_1 coef)

theorem refCoefAtSrc_apply (e : Fin 1000000) (j : Fin 64) :
    refCoefAtSrc src coef (ix2 e j) = coef (ix2 (rowOf nodes_pos (refColumn src) e) (0 : Fin 1)) := by
  unfold refCoefAtSrc
  rw [Cert.HostProduct.broadcastInDim_col_apply]
  exact gather_rows_apply nodes_pos gather_S200000x1_S1000000x1_S1000000x1_1_0_n_n_0_1_11_wf coef (refColumn src) e 0

theorem refRows_apply (e : Fin 1000000) (j : Fin 64) :
    Host.gather gather_S200000x64_S1000000x1_S1000000x64_1_0_n_n_0_1_164 tbl (refColumn src) (ix2 e j)
      = tbl (ix2 (rowOf nodes_pos (refColumn src) e) j) :=
  gather_rows_apply nodes_pos gather_S200000x64_S1000000x1_S1000000x64_1_0_n_n_0_1_164_wf tbl (refColumn src) e j

theorem refProduct_apply (e : Fin 1000000) (j : Fin 64) :
    refProduct feat w (ix2 e j) = ∑ k : Fin 64, feat (ix2 e k) * w (ix2 j k) := by
  unfold refProduct
  have h := Cert.HostProduct.dotGeneral_nn_apply (φ₁ := .f32) (φ₂ := .f32) dot_S1000000x64_S64x64_S1000000x64_1_0_0_1_n_n_wf none feat
    (transpose S64x64 [1, 0] w transposes_S64x64_S64x64_1_0 : FVec Ideal ⟨2, ![64, 64]⟩ .f32) e j
  refine h.trans (Finset.sum_congr rfl fun k _ => ?_)
  rw [Cert.Layout.transpose_ab_apply]

theorem refMessages1_apply (e : Fin 1000000) (j : Fin 64) :
    refMessages1 src feat coef w (ix2 e j)
      = (∑ k : Fin 64, feat (ix2 e k) * w (ix2 j k)) * coef (ix2 (rowOf nodes_pos (refColumn src) e) (0 : Fin 1)) := by
  unfold refMessages1
  rw [mulf_apply, refProduct_apply, refCoefAtSrc_apply]

theorem refMessages2_apply (e : Fin 1000000) (j : Fin 64) :
    refMessages2 src feat coef w tbl (ix2 e j)
      = (tbl (ix2 (rowOf nodes_pos (refColumn src) e) j) + ∑ k : Fin 64, feat (ix2 e k) * w (ix2 j k))
        * coef (ix2 (rowOf nodes_pos (refColumn src) e) (0 : Fin 1)) := by
  unfold refMessages2
  rw [mulf_apply, addf_apply, refProduct_apply, refCoefAtSrc_apply, refRows_apply]

theorem refMessages3_apply (e : Fin 1000000) (j : Fin 64) :
    refMessages3 src coef tbl (ix2 e j)
      = tbl (ix2 (rowOf nodes_pos (refColumn src) e) j) * coef (ix2 (rowOf nodes_pos (refColumn src) e) (0 : Fin 1)) := by
  unfold refMessages3
  rw [mulf_apply, refCoefAtSrc_apply, refRows_apply]

end Reference

/-! ## The kernel program's terms, and the two sides joined -/

section Kernel
open Cert.KernelIdeal Cert.KernelIdeal.Facts₀ Cert.KernelIdeal.Facts Cert.KernelIdeal.Between Cert.KernelIdeal.Edge Cert.KernelIdeal.Node

/-- Both programs lay the same index column. -/
theorem column_eq : srcColumn src = refColumn src := rfl

theorem coefAtSrc_apply (e : Fin 1000000) :
    Host.gather gather_S200000x1_S1000000x1_S1000000x1_1_0_n_n_0_1_11 coef (srcColumn src) (ix2 e (0 : Fin 1))
      = coef (ix2 (rowOf nodes_pos (refColumn src) e) (0 : Fin 1)) := by
  rw [column_eq]
  exact gather_rows_apply nodes_pos gather_S200000x1_S1000000x1_S1000000x1_1_0_n_n_0_1_11_wf coef (refColumn src) e 0

/-- A row of a pre-scaled table is the table's row times the row's coefficient. -/
theorem preScaledRows_apply (e : Fin 1000000) (j : Fin 64) :
    Host.gather gather_S200000x64_S1000000x1_S1000000x64_1_0_n_n_0_1_164 (preScaled tbl coef) (srcColumn src) (ix2 e j)
      = tbl (ix2 (rowOf nodes_pos (refColumn src) e) j) * coef (ix2 (rowOf nodes_pos (refColumn src) e) (0 : Fin 1)) := by
  rw [column_eq]
  refine (gather_rows_apply nodes_pos gather_S200000x64_S1000000x1_S1000000x64_1_0_n_n_0_1_164_wf (preScaled tbl coef) (refColumn src) e j).trans ?_
  unfold preScaled
  rw [mulf_apply, Cert.HostProduct.broadcastInDim_col_apply]

/-- The kernel's weights — transposed, then narrowed, which changes nothing at exact values. -/
theorem weights_apply (k j : Fin 64) :
    (truncf .bf16 (transpose S64x64 [1, 0] w transposes_S64x64_S64x64_1_0) bitsLt_bf16_f32 : FVec Ideal S64x64 .bf16) (ix2 k j)
      = w (ix2 j k) := by
  rw [truncf_apply, Cert.Layout.transpose_ab_apply]

/-- THE FIRST ARRAY OF MESSAGES is the same in both programs. -/
theorem messages1_eq :
    scaledProducts feat (Host.gather gather_S200000x1_S1000000x1_S1000000x1_1_0_n_n_0_1_11 coef (srcColumn src))
        (truncf .bf16 (transpose S64x64 [1, 0] w transposes_S64x64_S64x64_1_0) bitsLt_bf16_f32)
      = refMessages1 src feat coef w := by
  funext i
  obtain ⟨e, j, rfl⟩ : ∃ (e : Fin 1000000) (j : Fin 64), i = ix2 e j := ⟨i 0, i 1, eq_ix2 i⟩
  rw [refMessages1_apply]
  show (∑ k : Fin 64, feat (ix2 e k) * (truncf .bf16 (transpose S64x64 [1, 0] w transposes_S64x64_S64x64_1_0) bitsLt_bf16_f32 : FVec Ideal S64x64 .bf16) (ix2 k j))
      * Host.gather gather_S200000x1_S1000000x1_S1000000x1_1_0_n_n_0_1_11 coef (srcColumn src) (ix2 e (0 : Fin 1)) = _
  rw [coefAtSrc_apply]
  refine congrArg (· * coef (ix2 (rowOf nodes_pos (refColumn src) e) (0 : Fin 1))) (Finset.sum_congr rfl fun k _ => ?_)
  exact congrArg (feat (ix2 e k) * ·) (weights_apply w k j)

/-- THE THIRD ARRAY OF MESSAGES is the same in both programs. -/
theorem messages3_eq :
    Host.gather gather_S200000x64_S1000000x1_S1000000x64_1_0_n_n_0_1_164 (preScaled tbl coef) (srcColumn src)
      = refMessages3 src coef tbl := by
  funext i
  obtain ⟨e, j, rfl⟩ : ∃ (e : Fin 1000000) (j : Fin 64), i = ix2 e j := ⟨i 0, i 1, eq_ix2 i⟩
  rw [refMessages3_apply, preScaledRows_apply]

/-- THE SECOND ARRAY OF MESSAGES is the same in both programs when the inputs' entries are real numbers. -/
theorem messages2_eq (hfeat : ∀ i, IsReal (feat i)) (hcoef : ∀ i, IsReal (coef i)) (hw : ∀ i, IsReal (w i))
    (htbl : ∀ i, IsReal (tbl i)) :
    shiftedProducts feat (Host.gather gather_S200000x1_S1000000x1_S1000000x1_1_0_n_n_0_1_11 coef (srcColumn src))
        (truncf .bf16 (transpose S64x64 [1, 0] w transposes_S64x64_S64x64_1_0) bitsLt_bf16_f32)
        (Host.gather gather_S200000x64_S1000000x1_S1000000x64_1_0_n_n_0_1_164 (preScaled tbl coef) (srcColumn src))
      = refMessages2 src feat coef w tbl := by
  funext i
  obtain ⟨e, j, rfl⟩ : ∃ (e : Fin 1000000) (j : Fin 64), i = ix2 e j := ⟨i 0, i 1, eq_ix2 i⟩
  rw [refMessages2_apply]
  show Host.gather gather_S200000x64_S1000000x1_S1000000x64_1_0_n_n_0_1_164 (preScaled tbl coef) (srcColumn src) (ix2 e j)
      + (∑ k : Fin 64, feat (ix2 e k) * (truncf .bf16 (transpose S64x64 [1, 0] w transposes_S64x64_S64x64_1_0) bitsLt_bf16_f32 : FVec Ideal S64x64 .bf16) (ix2 k j))
        * Host.gather gather_S200000x1_S1000000x1_S1000000x1_1_0_n_n_0_1_11 coef (srcColumn src) (ix2 e (0 : Fin 1)) = _
  rw [coefAtSrc_apply, preScaledRows_apply]
  have products : (∑ k : Fin 64, feat (ix2 e k) * (truncf .bf16 (transpose S64x64 [1, 0] w transposes_S64x64_S64x64_1_0) bitsLt_bf16_f32 : FVec Ideal S64x64 .bf16) (ix2 k j))
      = ∑ k : Fin 64, feat (ix2 e k) * w (ix2 j k) :=
    Finset.sum_congr rfl fun k _ => congrArg (feat (ix2 e k) * ·) (weights_apply w k j)
  rw [products]
  exact mul_add_mul_of_real (htbl _) (IsReal.sum _ _ fun k _ => (hfeat _).mul (hw _)) (hcoef _)

/-- Equal arrays of messages give equal results: the same sum by destination, the same scaling node by node. -/
theorem result_eq (u : FVec Ideal S1000000x64 .f32) : scaledByNode (sumByDst dst u) coef = refResult dst coef u := by
  funext i
  obtain ⟨n, j, rfl⟩ : ∃ (n : Fin 200000) (j : Fin 64), i = ix2 n j := ⟨i 0, i 1, eq_ix2 i⟩
  unfold refResult
  rw [mulf_apply, Cert.HostProduct.broadcastInDim_col_apply]
  rfl

end Kernel

end Cert.Bridge

end
-- ==== Proof.FiniteEntries.lean ====
/-
  What the precondition gives: real entries.

  The precondition is the conjunction, input by input, of "every entry `x` has `|x| < +∞`" over the seven float
  inputs.  Each conjunct makes every entry of its input a real number (Proof/LibRealEntries.lean); the conjunction is
  an `and` of one-bit words, which is 1 only when both operands are.
-/
import proofs.«148145_j69131793596496_2_alg».proof.Proof.Gen.Pre_finite_inputs
import proofs.«148145_j69131793596496_2_alg».proof.Proof.LibRealEntries
import Idealize.ShloMosaic.Lib.Affine
import Idealize.ShloMosaic.Lib.ValueIdx

noncomputable section

namespace Cert.Pre_finite_inputs.Entries

open Idealize.ShloMosaic Cert.Pre_finite_inputs Cert.RealEntries

/-- Under the precondition every entry of the edge features, the coefficients, the two weight matrices and the two
    node tables is a real number. -/
theorem real (a0 a1 : IVec S1000000 32) (a2 : FVec Ideal S1000000x64 .f32) (a3 : FVec Ideal S200000x1 .f32)
    (a4 : FVec Ideal S200000x64 .f32) (a5 a6 : FVec Ideal S64x64 .f32) (a7 a8 : FVec Ideal S200000x64 .f32)
    (h : fn (F := Ideal) a0 a1 a2 a3 a4 a5 a6 a7 a8 = fun _ => 1#1) :
    (∀ i, IsReal (a2 i)) ∧ (∀ i, IsReal (a3 i)) ∧ (∀ i, IsReal (a5 i)) ∧ (∀ i, IsReal (a6 i))
      ∧ (∀ i, IsReal (a7 i)) ∧ (∀ i, IsReal (a8 i)) := by
  have h0 := congrFun h ValueIdx.ix0
  dsimp only [fn, fn_part1] at h0
  obtain ⟨h1, e8⟩ := IntOp.andi_eq_one.1 h0
  obtain ⟨h2, e7⟩ := IntOp.andi_eq_one.1 h1
  obtain ⟨h3, e6⟩ := IntOp.andi_eq_one.1 h2
  obtain ⟨h4, e5⟩ := IntOp.andi_eq_one.1 h3
  obtain ⟨h5, e4⟩ := IntOp.andi_eq_one.1 h4
  obtain ⟨e2, e3⟩ := IntOp.andi_eq_one.1 h5
  exact ⟨entries_real a2 _ _ _ e2, entries_real a3 _ _ _ e3, entries_real a5 _ _ _ e5, entries_real a6 _ _ _ e6,
    entries_real a7 _ _ _ e7, entries_real a8 _ _ _ e8⟩

end Cert.Pre_finite_inputs.Entries

end
-- ==== Proof.lean ====
/- The proof of `Cert.Claim`: the three frames, that the idealized kernel is the kernel's own text read at exact
   values (nothing was rewritten, so there is nothing to preserve), and that the idealized kernel program and the
   idealized reference end with equal results.

   The last is the mathematics.  Both programs compute three `[200000, 64]` arrays from the edge list
   `(src, dst)`, the edge features, the node coefficients `coef`, two weight matrices and two node tables: three arrays
   of per-edge messages, each summed over the edges by destination node and scaled node by node by `coef`.  The kernel
   program scales the node tables by `coef` before it takes their rows `src`, and adds the taken row to an already
   scaled matrix product; the reference takes rows first and scales last.  Edge by edge the messages agree — by the
   row gather commuting with a row-wise scaling, and by the distributive law, which needs the entries of the finite
   inputs to be real numbers (Proof/Bridge.lean, Proof/FiniteEntries.lean) — so the sums and the results agree.
   What the kernel program's buffers hold is read off its run region by region (Proof/Outcome.lean,
   Proof/EdgeArrays.lean, Proof/NodeArrays.lean, Proof/Between.lean). -/
import proofs.«148145_j69131793596496_2_alg».proof.Defs
import proofs.«148145_j69131793596496_2_alg».proof.Proof.Gen.Kernel
import proofs.«148145_j69131793596496_2_alg».proof.Proof.Gen.Kernel.Frame
import proofs.«148145_j69131793596496_2_alg».proof.Proof.Gen.KernelIdeal
import proofs.«148145_j69131793596496_2_alg».proof.Proof.Gen.KernelIdeal.Frame
import proofs.«148145_j69131793596496_2_alg».proof.Proof.Gen.ReferenceIdeal
import proofs.«148145_j69131793596496_2_alg».proof.Proof.Gen.ReferenceIdeal.Run
import proofs.«148145_j69131793596496_2_alg».proof.Proof.Gen.Pre_finite_inputs
import proofs.«148145_j69131793596496_2_alg».proof.Proof.Outcome
import proofs.«148145_j69131793596496_2_alg».proof.Proof.Between
import proofs.«148145_j69131793596496_2_alg».proof.Proof.Bridge
import proofs.«148145_j69131793596496_2_alg».proof.Proof.FiniteEntries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the arguments both idealized programs run to the end with the same three arrays. -/
theorem algebraic : Cert.algebraic_KernelIdeal_ReferenceIdeal := by
  intro m ρ m' ρ' hpre hagree
  refine ⟨fun c => Cert.KernelIdeal.Gen.W4 m ρ c (Proc.devRef .tc Cert.KernelIdeal.main_v39_1),
    fun c => Cert.KernelIdeal.Gen.W4 m ρ c (Proc.devRef .tc Cert.KernelIdeal.main_v39_0),
    fun c => Cert.KernelIdeal.Gen.W4 m ρ c (Proc.devRef .tc Cert.KernelIdeal.main_v39_2),
    Cert.KernelIdeal.Outcome.run m ρ, ?_⟩
  refine (θ_run Cert.ReferenceIdeal.defs _ _).mono (fun _ h c => ?_) (Cert.ReferenceIdeal.Value.run (F := Ideal) m' ρ')
  obtain ⟨h1, h2, h3, hargs⟩ := h c
  obtain ⟨a0, a1, a2, a3, a4, a5, a6, a7, a8⟩ := hagree c
  obtain ⟨r2, r3, r5, r6, r7, r8⟩ := Cert.Pre_finite_inputs.Entries.real _ _ _ _ _ _ _ _ _ (hpre c)
  refine ⟨h1.trans ?_, h2.trans ?_, h3.trans ?_, hargs⟩
  · rw [a0, a1, a2, a3, a6, a7]
    refine Eq.trans ?_ (Cert.KernelIdeal.Between.value_rst m ρ c).symm
    refine Eq.trans ?_ (congrArg (fun u => Cert.KernelIdeal.Node.scaledByNode (Cert.KernelIdeal.Between.sumByDst (m ((c.tc : Thread Cert.KernelIdeal.nD Cert.KernelIdeal.τ).loc Cert.KernelIdeal.main_arg1)) u) (m ((c.tc : Thread Cert.KernelIdeal.nD Cert.KernelIdeal.τ).loc Cert.KernelIdeal.main_arg3)))
      (Cert.Bridge.messages2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) r2 r3 r6 r7).symm)
    refine Eq.trans ?_ (Cert.Bridge.result_eq (m ((c.tc : Thread Cert.KernelIdeal.nD Cert.KernelIdeal.τ).loc Cert.KernelIdeal.main_arg1)) (m ((c.tc : Thread Cert.KernelIdeal.nD Cert.KernelIdeal.τ).loc Cert.KernelIdeal.main_arg3)) _).symm
    rfl
  · rw [a0, a1, a2, a3, a5]
    refine Eq.trans ?_ (Cert.KernelIdeal.Between.value_rst_re m ρ c).symm
    refine Eq.trans ?_ (congrArg (fun u => Cert.KernelIdeal.Node.scaledByNode (Cert.KernelIdeal.Between.sumByDst (m ((c.tc : Thread Cert.KernelIdeal.nD Cert.KernelIdeal.τ).loc Cert.KernelIdeal.main_arg1)) u) (m ((c.tc : Thread Cert.KernelIdeal.nD Cert.KernelIdeal.τ).loc Cert.KernelIdeal.main_arg3)))
      (Cert.Bridge.messages1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))).symm)
    refine Eq.trans ?_ (Cert.Bridge.result_eq (m ((c.tc : Thread Cert.KernelIdeal.nD Cert.KernelIdeal.τ).loc Cert.KernelIdeal.main_arg1)) (m ((c.tc : Thread Cert.KernelIdeal.nD Cert.KernelIdeal.τ).loc Cert.KernelIdeal.main_arg3)) _).symm
    rfl
  · rw [a0, a1, a3, a8]
    refine Eq.trans ?_ (Cert.KernelIdeal.Between.value_rst_id m ρ c).symm
    refine Eq.trans ?_ (congrArg (fun u => Cert.KernelIdeal.Node.scaledByNode (Cert.KernelIdeal.Between.sumByDst (m ((c.tc : Thread Cert.KernelIdeal.nD Cert.KernelIdeal.τ).loc Cert.KernelIdeal.main_arg1)) u) (m ((c.tc : Thread Cert.KernelIdeal.nD Cert.KernelIdeal.τ).loc Cert.KernelIdeal.main_arg3)))
      (Cert.Bridge.messages3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg8))).symm)
    refine Eq.trans ?_ (Cert.Bridge.result_eq (m ((c.tc : Thread Cert.KernelIdeal.nD Cert.KernelIdeal.τ).loc Cert.KernelIdeal.main_arg1)) (m ((c.tc : Thread Cert.KernelIdeal.nD Cert.KernelIdeal.τ).loc Cert.KernelIdeal.main_arg3)) _).symm
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
